-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x10 : Shape := ⟨2, ![16384, 10]⟩
abbrev S100000x128 : Shape := ⟨2, ![100000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x256 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S16384 32) (main_arg1 : IVec S16384x10 32) (main_arg2 : FVec F S100000x128 .f32) (main_arg3 : FVec F S256x256 .f32) (main_arg4 : FVec F S256 .f32) (main_arg5 : FVec F S128x256 .f32) (main_arg6 : FVec F S128 .f32) (main_arg7 : FVec F S128x256 .f32) (main_arg8 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S16384 : Shape := ⟨1, ![16384]⟩
abbrev S16384x10 : Shape := ⟨2, ![16384, 10]⟩
abbrev S100000x128 : Shape := ⟨2, ![100000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S16384x1 : Shape := ⟨2, ![16384, 1]⟩
abbrev S16384x128 : Shape := ⟨2, ![16384, 128]⟩
abbrev S16384x10x1 : Shape := ⟨3, ![16384, 10, 1]⟩
abbrev S16384x10x128 : Shape := ⟨3, ![16384, 10, 128]⟩
abbrev S16384x1280 : Shape := ⟨2, ![16384, 1280]⟩
abbrev S256x128 : Shape := ⟨2, ![256, 128]⟩
abbrev S1x256 : Shape := ⟨2, ![1, 256]⟩
abbrev S1x128 : Shape := ⟨2, ![1, 128]⟩
abbrev S2048x1280 : Shape := ⟨2, ![2048, 1280]⟩
abbrev S2048x128 : Shape := ⟨2, ![2048, 128]⟩
abbrev S2048x256 : Shape := ⟨2, ![2048, 256]⟩

abbrev nBuf : Space → Nat
  | .hbm => 44
  | .vmem => 15
  | .smem => 0
  | _ => 0

abbrev bufTy : (tb : Table) → Fin (tcTables nBuf tb) → BufTy
  | .hbm, ⟨0, _⟩ => ⟨S16384, .i32⟩
  | .hbm, ⟨1, _⟩ => ⟨S16384x10, .i32⟩
  | .hbm, ⟨2, _⟩ => ⟨S100000x128, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S100000x128, .bf16⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x128, .bf16⟩
  | .hbm, ⟨19, _⟩ => ⟨S_, .i32⟩
  | .hbm, ⟨20, _⟩ => ⟨S16384x10, .i32⟩
  | .hbm, ⟨21, _⟩ => ⟨S16384x10, .i1⟩
  | .hbm, ⟨22, _⟩ => ⟨S_, .i32⟩
  | .hbm, ⟨23, _⟩ => ⟨S16384x10, .i32⟩
  | .hbm, ⟨24, _⟩ => ⟨S16384x10, .i32⟩
  | .hbm, ⟨25, _⟩ => ⟨S16384x10, .i32⟩
  | .hbm, ⟨26, _⟩ => ⟨S16384x10x1, .i32⟩
  | .hbm, ⟨27, _⟩ => ⟨S16384x10x128, .bf16⟩
  | .hbm, ⟨28, _⟩ => ⟨S16384x1280, .bf16⟩
  | .hbm, ⟨29, _⟩ => ⟨S256x128, .f32⟩
  | .hbm, ⟨30, _⟩ => ⟨S128x256, .f32⟩
  | .hbm, ⟨31, _⟩ => ⟨S128x256, .bf16⟩
  | .hbm, ⟨32, _⟩ => ⟨S256x128, .f32⟩
  | .hbm, ⟨33, _⟩ => ⟨S128x256, .f32⟩
  | .hbm, ⟨34, _⟩ => ⟨S128x256, .bf16⟩
  | .hbm, ⟨35, _⟩ => ⟨S256x128, .f32⟩
  | .hbm, ⟨36, _⟩ => ⟨S256x128, .bf16⟩
  | .hbm, ⟨37, _⟩ => ⟨S256x128, .f32⟩
  | .hbm, ⟨38, _⟩ => ⟨S256x128, .bf16⟩
  | .hbm, ⟨39, _⟩ => ⟨S1x256, .f32⟩
  | .hbm, ⟨40, _⟩ => ⟨S1x128, .f32⟩
  | .hbm, ⟨41, _⟩ => ⟨S1x128, .f32⟩
  | .hbm, ⟨42, _⟩ => ⟨S16384x128, .f32⟩
  | .hbm, ⟨43, _⟩ => ⟨S16384x128, .f32⟩
  | .local _ .vmem, ⟨0, _⟩ => ⟨S2048x1280, .bf16⟩
  | .local _ .vmem, ⟨1, _⟩ => ⟨S2048x1280, .bf16⟩
  | .local _ .vmem, ⟨2, _⟩ => ⟨S2048x128, .bf16⟩
  | .local _ .vmem, ⟨3, _⟩ => ⟨S2048x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S256x128, .bf16⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S16384 : S_.BroadcastsInDim S16384 (![] : Fin 0 → Fin S16384.rank)
  bcast_S16384_S16384x1_0 : S16384.BroadcastsInDim S16384x1 (![0] : Fin 1 → Fin S16384x1.rank)
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  shapeCasts_S16384x10x128_S16384x1280 : S16384x10x128.ShapeCasts S16384x1280
  slices_S256x256_S256x128_0_0 : S256x256.Slices ![0, 0] S256x128
  transposes_S256x128_S128x256_1_0 : S256x128.Transposes [1, 0] S128x256
  slices_S256x256_S256x128_0_128 : S256x256.Slices ![0, 128] S256x128
  transposes_S128x256_S256x128_1_0 : S128x256.Transposes [1, 0] S256x128
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x1280_S2048x128_0_0 : ∀ a, (![0, 0] : Fin 2 → Nat) a + S2048x128.size a ≤ S2048x1280.size a
  inb_S2048x1280_S2048x128_0_128 : ∀ a, (![0, 128] : Fin 2 → Nat) a + S2048x128.size a ≤ S2048x1280.size a
  inb_S2048x1280_S2048x128_0_256 : ∀ a, (![0, 256] : Fin 2 → Nat) a + S2048x128.size a ≤ S2048x1280.size a
  inb_S2048x1280_S2048x128_0_384 : ∀ a, (![0, 384] : Fin 2 → Nat) a + S2048x128.size a ≤ S2048x1280.size a
  inb_S2048x1280_S2048x128_0_512 : ∀ a, (![0, 512] : Fin 2 → Nat) a + S2048x128.size a ≤ S2048x1280.size a
  inb_S2048x1280_S2048x128_0_640 : ∀ a, (![0, 640] : Fin 2 → Nat) a + S2048x128.size a ≤ S2048x1280.size a
  inb_S2048x1280_S2048x128_0_768 : ∀ a, (![0, 768] : Fin 2 → Nat) a + S2048x128.size a ≤ S2048x1280.size a
  inb_S2048x1280_S2048x128_0_896 : ∀ a, (![0, 896] : Fin 2 → Nat) a + S2048x128.size a ≤ S2048x1280.size a
  inb_S2048x1280_S2048x128_0_1024 : ∀ a, (![0, 1024] : Fin 2 → Nat) a + S2048x128.size a ≤ S2048x1280.size a
  inb_S2048x1280_S2048x128_0_1152 : ∀ a, (![0, 1152] : Fin 2 → Nat) a + S2048x128.size a ≤ S2048x1280.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  gather_S100000x128_S16384x1_S16384x128_1_0_n_n_0_1_1128_wf : GatherDims.WF S100000x128 S16384x1 S16384x128 [1] [0] [] [0] [] 1 ![1, 128]
  gather_S100000x128_S16384x10x1_S16384x10x128_2_0_n_n_0_2_1128_wf : GatherDims.WF S100000x128 S16384x10x1 S16384x10x128 [2] [0] [] [0] [] 2 ![1, 128]
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1280.size a ≤ S16384x1280.size a
  hwx0_0 : ∀ i : grid0.Coords, EltTy.bits .bf16 = 32 ∨ (Rect.block (s := S16384x1280) S2048x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S16384x128.size a
  hwx0_9 : ∀ i : grid0.Coords, EltTy.bits .f32 = 32 ∨ (Rect.block (s := S16384x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S16384x128.size a
  hwx0_10 : ∀ i : grid0.Coords, EltTy.bits .f32 = 32 ∨ (Rect.block (s := S16384x128) S2048x128.size (cc0_transform_10 i) (hinb0_10 i)).WholeWords (EltTy.packing .f32)

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S16384x10x1_S16384x10x128_2_0_n_n_0_2_1128 : GatherDims S100000x128 S16384x10x1 S16384x10x128 where
  offsetDims := [2]
  collapsedSliceDims := [0]
  operandBatchingDims := []
  startIndicesBatchingDims := []
  startIndexMap := [0]
  indexVectorDim := 2
  sliceSizes := ![1, 128]
  wf := gather_S100000x128_S16384x10x1_S16384x10x128_2_0_n_n_0_2_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v15) S2048x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v29_1) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384 : Shape := ⟨1, ![16384]⟩
abbrev S16384x10 : Shape := ⟨2, ![16384, 10]⟩
abbrev S100000x128 : Shape := ⟨2, ![100000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S16384x1 : Shape := ⟨2, ![16384, 1]⟩
abbrev S16384x128 : Shape := ⟨2, ![16384, 128]⟩
abbrev S16384x10x1 : Shape := ⟨3, ![16384, 10, 1]⟩
abbrev S16384x10x128 : Shape := ⟨3, ![16384, 10, 128]⟩
abbrev S16384x1x128 : Shape := ⟨3, ![16384, 1, 128]⟩
abbrev S16384x10x256 : Shape := ⟨3, ![16384, 10, 256]⟩
abbrev S1x1x256 : Shape := ⟨3, ![1, 1, 256]⟩
abbrev S16384x256 : Shape := ⟨2, ![16384, 256]⟩
abbrev S256x128 : Shape := ⟨2, ![256, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x10, .i32⟩
  | .hbm, ⟨2, _⟩ => ⟨S100000x128, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S_, .i32⟩
  | .hbm, ⟨19, _⟩ => ⟨S16384x10, .i32⟩
  | .hbm, ⟨20, _⟩ => ⟨S16384x10, .i1⟩
  | .hbm, ⟨21, _⟩ => ⟨S_, .i32⟩
  | .hbm, ⟨22, _⟩ => ⟨S16384x10, .i32⟩
  | .hbm, ⟨23, _⟩ => ⟨S16384x10, .i32⟩
  | .hbm, ⟨24, _⟩ => ⟨S16384x10, .i32⟩
  | .hbm, ⟨25, _⟩ => ⟨S16384x10x1, .i32⟩
  | .hbm, ⟨26, _⟩ => ⟨S16384x10x128, .f32⟩
  | .hbm, ⟨27, _⟩ => ⟨S16384x1x128, .f32⟩
  | .hbm, ⟨28, _⟩ => ⟨S16384x10x128, .f32⟩
  | .hbm, ⟨29, _⟩ => ⟨S16384x10x256, .f32⟩
  | .hbm, ⟨30, _⟩ => ⟨S16384x10x256, .f32⟩
  | .hbm, ⟨31, _⟩ => ⟨S1x1x256, .f32⟩
  | .hbm, ⟨32, _⟩ => ⟨S16384x10x256, .f32⟩
  | .hbm, ⟨33, _⟩ => ⟨S16384x10x256, .f32⟩
  | .hbm, ⟨34, _⟩ => ⟨S_, .f32⟩
  | .hbm, ⟨35, _⟩ => ⟨S16384x10x256, .f32⟩
  | .hbm, ⟨36, _⟩ => ⟨S16384x10x256, .f32⟩
  | .hbm, ⟨37, _⟩ => ⟨S_, .f32⟩
  | .hbm, ⟨38, _⟩ => ⟨S16384x256, .f32⟩
  | .hbm, ⟨39, _⟩ => ⟨S256x128, .f32⟩
  | .hbm, ⟨40, _⟩ => ⟨S16384x128, .f32⟩
  | .hbm, ⟨41, _⟩ => ⟨S1x128, .f32⟩
  | .hbm, ⟨42, _⟩ => ⟨S16384x128, .f32⟩
  | .hbm, ⟨43, _⟩ => ⟨S16384x128, .f32⟩
  | .hbm, ⟨44, _⟩ => ⟨S256x128, .f32⟩
  | .hbm, ⟨45, _⟩ => ⟨S16384x128, .f32⟩
  | .hbm, ⟨46, _⟩ => ⟨S1x128, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S16384x128, .i1⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_v33 : Ref sig .tc := ⟨.hbm, 62, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  bcast_S16384x128_S16384x1x128_0_2 : S16384x128.BroadcastsInDim S16384x1x128 (![0, 2] : Fin 2 → Fin S16384x1x128.rank)
  bcast_S16384x1x128_S16384x10x128_0_1_2 : S16384x1x128.BroadcastsInDim S16384x10x128 (![0, 1, 2] : Fin 3 → Fin S16384x10x128.rank)
  concatenates_S16384x10x128_S16384x10x128_S16384x10x256_d2 : Shape.Concatenates [S16384x10x128, S16384x10x128] S16384x10x256 2
  bcast_S256_S1x1x256_2 : S256.BroadcastsInDim S1x1x256 (![2] : Fin 1 → Fin S1x1x256.rank)
  bcast_S1x1x256_S16384x10x256_0_1_2 : S1x1x256.BroadcastsInDim S16384x10x256 (![0, 1, 2] : Fin 3 → Fin S16384x10x256.rank)
  bcast_S_S16384x10x256 : S_.BroadcastsInDim S16384x10x256 (![] : Fin 0 → Fin S16384x10x256.rank)
  reducesTo_S16384x10x256_S16384x256_d1 : S16384x10x256.ReducesTo [1] S16384x256
  h_S_ : 0 < S_.numel
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]
  gather_S100000x128_S16384x10x1_S16384x10x128_2_0_n_n_0_2_1128_wf : GatherDims.WF S100000x128 S16384x10x1 S16384x10x128 [2] [0] [] [0] [] 2 ![1, 128]
  dot_S16384x10x256_S256x256_S16384x10x256_2_1_01_0_n_n_wf : DotDims.WF S16384x10x256 S256x256 S16384x10x256 [2] [1] [0, 1] [0] [] []
  dot_S16384x256_S256x128_S16384x128_1_0_0_1_n_n_wf : DotDims.WF S16384x256 S256x128 S16384x128 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S100000x128_S16384x10x1_S16384x10x128_2_0_n_n_0_2_1128 : GatherDims S100000x128 S16384x10x1 S16384x10x128 where
  offsetDims := [2]
  collapsedSliceDims := [0]
  operandBatchingDims := []
  startIndicesBatchingDims := []
  startIndexMap := [0]
  indexVectorDim := 2
  sliceSizes := ![1, 128]
  wf := gather_S100000x128_S16384x10x1_S16384x10x128_2_0_n_n_0_2_1128_wf
def dot_S16384x10x256_S256x256_S16384x10x256_2_1_01_0_n_n : DotDims S16384x10x256 S256x256 S16384x10x256 where
  lhsContracting := [2]
  rhsContracting := [1]
  lhsNonContracting := [0, 1]
  rhsNonContracting := [0]
  lhsBatch := []
  rhsBatch := []
  wf := dot_S16384x10x256_S256x256_S16384x10x256_2_1_01_0_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.Spec.lean ====
/-
  One batch row of the encoder, as plain sums over the extended reals.

  A row carries ten context embeddings `cw c` and one target embedding `tw`, each 128 wide. Every context is
  joined with the target into a 256-wide vector and sent through one linear layer with 256 outputs, a weight
  row of which splits into the half `A · e` that meets the context and the half `B · e` that meets the target;
  the ten results are clipped below at zero and added up (`hid`). Two further linear layers read the 256 hidden
  units (`lin`), the second followed by softplus.

  The two programs compared differ only in how they associate these sums: one forms the target's half once and
  adds the bias to it before adding each context's half, and adds the ten clipped terms one after the other
  onto zero; the other takes the 256-long dot product of the joined vector, adds the bias, and sums the ten
  terms at once. Addition of extended reals is associative and commutative, and a sum over 256 indices is the
  sum over the first 128 plus the sum over the last 128, so the two agree; no finiteness is needed.
-/
import Idealize.ShloMosaic.PureOps.Ideal.Laws

noncomputable section

open scoped BigOperators

namespace Cert.Encoder

open Idealize.ShloMosaic

/-- Column `d` of context `c` in a row of ten 128-wide embeddings laid side by side. -/
def col (c : Fin 10) (d : Fin 128) : Fin 1280 :=
  ⟨c.val * 128 + d.val, by have := c.isLt; have := d.isLt; omega⟩

/-- Position `d` of the first half of a 256-wide axis. -/
def lo (d : Fin 128) : Fin 256 := Fin.castAdd 128 d

/-- Position `d` of the second half of a 256-wide axis. -/
def hi (d : Fin 128) : Fin 256 := Fin.natAdd 128 d

theorem lo_val (d : Fin 128) : (lo d).val = d.val := rfl

theorem hi_val (d : Fin 128) : (hi d).val = 128 + d.val := rfl

/-- Hidden unit `e` of context `c` before clipping: the context's half of the dot product, plus the target's half
    with the bias already added to it. -/
def pre (cw : Fin 10 → Fin 128 → EReal) (tw : Fin 128 → EReal) (A B : Fin 128 → Fin 256 → EReal)
    (β : Fin 256 → EReal) (c : Fin 10) (e : Fin 256) : EReal :=
  (∑ d : Fin 128, cw c d * A d e) + ((∑ d : Fin 128, tw d * B d e) + β e)

/-- Hidden unit `e` of the row: the ten contexts' units, clipped below at zero, added up. -/
def hid (cw : Fin 10 → Fin 128 → EReal) (tw : Fin 128 → EReal) (A B : Fin 128 → Fin 256 → EReal)
    (β : Fin 256 → EReal) (e : Fin 256) : EReal :=
  ∑ c : Fin 10, max (pre cw tw A B β c e) 0

/-- Output `q` of a linear layer on the vector `h`. -/
def lin {K N : ℕ} (h : Fin K → EReal) (U : Fin K → Fin N → EReal) (u : Fin N → EReal) (q : Fin N) : EReal :=
  (∑ e : Fin K, h e * U e q) + u q

/-- Softplus in its overflow-safe spelling: `max x 0 + log (1 + exp (-|x|))`. -/
def softplus (x : EReal) : EReal := max x 0 + Ideal.log1p (Ideal.exp (-(max x (-x))))

/-- Ten terms added one after the other onto zero are their sum. -/
theorem acc10 (r : Fin 10 → EReal) :
    (((((((((0 + r 0) + r 1) + r 2) + r 3) + r 4) + r 5) + r 6) + r 7) + r 8) + r 9 = ∑ c : Fin 10, r c := by
  rw [zero_add, Fin.sum_univ_castSucc, Fin.sum_univ_castSucc, Fin.sum_univ_eight]
  rfl

/-- A 256-long dot product of a joined vector `s` (first half `a`, second half `t`) with a weight row, plus a
    bias, is the first half's product plus the second half's product with the bias added to it. -/
theorem dot_joined (s w : Fin 256 → EReal) (a t : Fin 128 → EReal) (b : EReal)
    (hlo : ∀ d, s (lo d) = a d) (hhi : ∀ d, s (hi d) = t d) :
    (∑ k : Fin 256, s k * w k) + b
      = (∑ d : Fin 128, a d * w (lo d)) + ((∑ d : Fin 128, t d * w (hi d)) + b) := by
  have e : (∑ k : Fin 256, s k * w k)
      = (∑ d : Fin 128, s (lo d) * w (lo d)) + ∑ d : Fin 128, s (hi d) * w (hi d) :=
    Fin.sum_univ_add (a := 128) (b := 128) (fun k => s k * w k)
  rw [e, add_assoc]
  simp only [hlo, hhi]

/-- The other program's spelling of a hidden unit — zero plus the sum over the contexts of the clipped 256-long dot
    product of the joined vector with row `e` of the weights `W`, bias added — is `hid` with the weight row's halves. -/
theorem hid_of_joined (s : Fin 10 → Fin 256 → EReal) (W : Fin 256 → Fin 256 → EReal) (β : Fin 256 → EReal)
    (cw : Fin 10 → Fin 128 → EReal) (tw : Fin 128 → EReal)
    (hlo : ∀ c d, s c (lo d) = cw c d) (hhi : ∀ c d, s c (hi d) = tw d) (e : Fin 256) :
    0 + ∑ c : Fin 10, max ((∑ k : Fin 256, s c k * W e k) + β e) 0
      = hid cw tw (fun d e => W e (lo d)) (fun d e => W e (hi d)) β e := by
  rw [zero_add]
  refine Finset.sum_congr rfl fun c _ => ?_
  exact congrArg (max · 0) (dot_joined (s c) (W e) (cw c) tw (β e) (hlo c) (hhi c))

end Cert.Encoder

end
-- ==== Proof.Body.lean ====
/-
  What the kernel body computes for one row of a block, read at an index.

  The body works on a block of 2048 batch rows. Its arithmetic is a chain of pure terms over the loaded blocks
  (the generated skeleton's payloads): the target's projection with the bias added (`k0_pay3`), then for each of
  the ten 128-wide column bands of the context block a product with the context half of the weights, plus that
  base, clipped at zero and added onto the running total (`k0_pay4` … `k0_pay8`, cut where the printed function
  is cut), then two products with the output weights, one with a bias row added (`k0_pay9`, `k0_pay1`), the other
  with a bias row added and softplus applied (`k0_pay2`).

  Each lemma reads one payload at `(p, e)` as sums over the contracted axis of entries of row `p`; together they
  say that entry `(p, q)` of either result is the row function of `Spec.lean` applied to row `p` of the two
  embedding blocks and to the weight blocks.
-/
import proofs.«126646_j84894323573021_2_alg».proof.Proof.Gen.KernelIdeal.Skeleton
import proofs.«126646_j84894323573021_2_alg».proof.Proof.LibDot
import proofs.«126646_j84894323573021_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.Encoder

/-- The zero the body splats is the extended real zero. -/
theorem zero_bits : (Scalar.ofBits .f32 0x00000000#32 : Ideal .f32) = 0 := Ideal.ofBits_zero_f32

/-- A 2048×128 block times a 128×256 weight block, into zeros, at `(p, e)`. -/
theorem proj_apply (a : Vec Ideal S2048x128 .bf16) (w : Vec Ideal S128x256 .bf16) (p : Fin 2048) (e : Fin 256) :
    matmul (F := Ideal) dot_S2048x128_S128x256_S2048x256_1_0_0_1_n_n none
        (shapeCast S2048x128 a shapeCasts_S2048x128_S2048x128 : FVec Ideal S2048x128 .bf16)
        (shapeCast S128x256 w shapeCasts_S128x256_S128x256 : FVec Ideal S128x256 .bf16)
        (constant S2048x256 .f32 0x00000000#32) (ix2 p e)
      = ∑ d : Fin 128, a (ix2 p d) * w (ix2 d e) := by
  rw [shapeCast_self, shapeCast_self]
  refine (Ideal.matmul_constant_zero_apply (φ₁ := .bf16) (φ₂ := .bf16) _ none a w (ix2 p e)).trans ?_
  exact PlainDot.sum_eq _ rfl rfl rfl rfl rfl rfl (fun i => a i) (fun i => w i) p e

/-- A 2048×256 block times a 256×128 weight block, into zeros, at `(p, q)`. -/
theorem out_apply (h : FVec Ideal S2048x256 .bf16) (w : Vec Ideal S256x128 .bf16) (p : Fin 2048) (q : Fin 128) :
    matmul (F := Ideal) dot_S2048x256_S256x128_S2048x128_1_0_0_1_n_n none h
        (shapeCast S256x128 w shapeCasts_S256x128_S256x128 : FVec Ideal S256x128 .bf16)
        (constant S2048x128 .f32 0x00000000#32) (ix2 p q)
      = ∑ e : Fin 256, h (ix2 p e) * w (ix2 e q) := by
  rw [shapeCast_self]
  refine (Ideal.matmul_constant_zero_apply (φ₁ := .bf16) (φ₂ := .bf16) _ none h w (ix2 p q)).trans ?_
  exact PlainDot.sum_eq _ rfl rfl rfl rfl rfl rfl (fun i => h i) (fun i => w i) p q

/-- Clipping at a splatted zero, at an index. -/
theorem relu_apply {s : Shape} (x : FVec Ideal s .f32) (i : s.Idx) :
    maximumf x (broadcast s (0 : Ideal .f32)) i = max (x i) 0 := rfl

/-- The pointwise functions of softplus, at an index. -/
theorem log1p_apply {s : Shape} (x : FVec Ideal s .f32) (i : s.Idx) : log1p x i = Ideal.log1p (x i) := rfl
theorem exp_apply {s : Shape} (x : FVec Ideal s .f32) (i : s.Idx) : exp x i = Ideal.exp (x i) := rfl
theorem absf_apply {s : Shape} (x : FVec Ideal s .f32) (i : s.Idx) : absf x i = max (x i) (-(x i)) := rfl

/-- The 256-wide bias row spread over the rows of a block, at `(p, e)`. -/
theorem bias256_apply (v : Vec Ideal S1x256 .f32) (p : Fin 2048) (e : Fin 256) :
    broadcastTo S2048x256 (shapeCast S1x256 v shapeCasts_S1x256_S1x256 : FVec Ideal S1x256 .f32)
      broadcasts_S1x256_S2048x256 (ix2 p e) = v (ix2 (0 : Fin 1) e) := by
  rw [broadcastTo_1b_ab_apply, shapeCast_self]

/-- A 128-wide bias row spread over the rows of a block, at `(p, q)`. -/
theorem bias128_apply (v : Vec Ideal S1x128 .f32) (p : Fin 2048) (q : Fin 128) :
    broadcastTo S2048x128 (shapeCast S1x128 v shapeCasts_S1x128_S1x128 : FVec Ideal S1x128 .f32)
      broadcasts_S1x128_S2048x128 (ix2 p q) = v (ix2 (0 : Fin 1) q) := by
  rw [broadcastTo_1b_ab_apply, shapeCast_self]

/-- The target's projection with the bias added. -/
theorem pay3_apply (v0 : Vec Ideal S2048x128 .bf16) (v2 : Vec Ideal S128x256 .bf16) (v5 : Vec Ideal S1x256 .f32)
    (p : Fin 2048) (e : Fin 256) :
    k0_pay3 v0 v2 v5 (ix2 p e) = (∑ d : Fin 128, v0 (ix2 p d) * v2 (ix2 d e)) + v5 (ix2 (0 : Fin 1) e) := by
  simp only [k0_pay3, addf_apply, proj_apply, bias256_apply]

/-- The running total after the first two contexts. -/
theorem pay4_apply (v0 : Vec Ideal S2048x128 .bf16) (v2 : Vec Ideal S128x256 .bf16) (v5 : Vec Ideal S1x256 .f32)
    (v10 : Vec Ideal S2048x128 .bf16) (v12 : Vec Ideal S128x256 .bf16) (v19 : Vec Ideal S2048x128 .bf16)
    (v21 : Vec Ideal S128x256 .bf16) (p : Fin 2048) (e : Fin 256) :
    k0_pay4 v0 v2 v5 v10 v12 v19 v21 (ix2 p e)
      = (0 + max ((∑ d : Fin 128, v10 (ix2 p d) * v12 (ix2 d e)) + k0_pay3 v0 v2 v5 (ix2 p e)) 0)
        + max ((∑ d : Fin 128, v19 (ix2 p d) * v21 (ix2 d e)) + k0_pay3 v0 v2 v5 (ix2 p e)) 0 := by
  simp only [k0_pay4, addf_apply, relu_apply, proj_apply, broadcast_apply, zero_bits]

/-- The third context's unit before clipping. -/
theorem pay5_apply (v0 : Vec Ideal S2048x128 .bf16) (v2 : Vec Ideal S128x256 .bf16) (v5 : Vec Ideal S1x256 .f32)
    (v28 : Vec Ideal S2048x128 .bf16) (v30 : Vec Ideal S128x256 .bf16) (p : Fin 2048) (e : Fin 256) :
    k0_pay5 v0 v2 v5 v28 v30 (ix2 p e)
      = (∑ d : Fin 128, v28 (ix2 p d) * v30 (ix2 d e)) + k0_pay3 v0 v2 v5 (ix2 p e) := by
  simp only [k0_pay5, addf_apply, proj_apply]

/-- The running total after contexts three to six. -/
theorem pay6_apply (v8 v27 v33 : FVec Ideal S2048x256 .f32) (v37 : Vec Ideal S2048x128 .bf16)
    (v39 : Vec Ideal S128x256 .bf16) (v46 : Vec Ideal S2048x128 .bf16) (v48 : Vec Ideal S128x256 .bf16)
    (v55 : Vec Ideal S2048x128 .bf16) (v57 : Vec Ideal S128x256 .bf16) (p : Fin 2048) (e : Fin 256) :
    k0_pay6 v8 v27 v33 v37 v39 v46 v48 v55 v57 (ix2 p e)
      = (((v27 (ix2 p e) + max (v33 (ix2 p e)) 0)
          + max ((∑ d : Fin 128, v37 (ix2 p d) * v39 (ix2 d e)) + v8 (ix2 p e)) 0)
          + max ((∑ d : Fin 128, v46 (ix2 p d) * v48 (ix2 d e)) + v8 (ix2 p e)) 0)
          + max ((∑ d : Fin 128, v55 (ix2 p d) * v57 (ix2 d e)) + v8 (ix2 p e)) 0 := by
  simp only [k0_pay6, addf_apply, zero_bits, relu_apply, proj_apply]

/-- The seventh context's unit before clipping. -/
theorem pay7_apply (v8 : FVec Ideal S2048x256 .f32) (v64 : Vec Ideal S2048x128 .bf16) (v66 : Vec Ideal S128x256 .bf16)
    (p : Fin 2048) (e : Fin 256) :
    k0_pay7 v8 v64 v66 (ix2 p e) = (∑ d : Fin 128, v64 (ix2 p d) * v66 (ix2 d e)) + v8 (ix2 p e) := by
  simp only [k0_pay7, addf_apply, proj_apply]

/-- The hidden block: the running total after all ten contexts (its narrowing to bf16 changes nothing). -/
theorem pay8_apply (v8 v63 v69 : FVec Ideal S2048x256 .f32) (v73 : Vec Ideal S2048x128 .bf16)
    (v75 : Vec Ideal S128x256 .bf16) (v82 : Vec Ideal S2048x128 .bf16) (v84 : Vec Ideal S128x256 .bf16)
    (v91 : Vec Ideal S2048x128 .bf16) (v93 : Vec Ideal S128x256 .bf16) (p : Fin 2048) (e : Fin 256) :
    k0_pay8 v8 v63 v69 v73 v75 v82 v84 v91 v93 (ix2 p e)
      = (((v63 (ix2 p e) + max (v69 (ix2 p e)) 0)
          + max ((∑ d : Fin 128, v73 (ix2 p d) * v75 (ix2 d e)) + v8 (ix2 p e)) 0)
          + max ((∑ d : Fin 128, v82 (ix2 p d) * v84 (ix2 d e)) + v8 (ix2 p e)) 0)
          + max ((∑ d : Fin 128, v91 (ix2 p d) * v93 (ix2 d e)) + v8 (ix2 p e)) 0 := by
  simp only [k0_pay8, truncf_apply, addf_apply, zero_bits, relu_apply, proj_apply]

/-- THE HIDDEN BLOCK AT `(p, e)` is the row function `hid` of row `p` of the ten context bands `a0 … a9` and of the
    target block `v0`, with the two weight blocks and the bias row. -/
theorem hid_block (v0 : Vec Ideal S2048x128 .bf16) (v2 : Vec Ideal S128x256 .bf16) (v5 : Vec Ideal S1x256 .f32)
    (a0 a1 a2 a3 a4 a5 a6 a7 a8 a9 : Vec Ideal S2048x128 .bf16) (w : Vec Ideal S128x256 .bf16)
    (p : Fin 2048) (e : Fin 256) :
    k0_pay8 (k0_pay3 v0 v2 v5)
        (k0_pay6 (k0_pay3 v0 v2 v5) (k0_pay4 v0 v2 v5 a0 w a1 w) (k0_pay5 v0 v2 v5 a2 w) a3 w a4 w a5 w)
        (k0_pay7 (k0_pay3 v0 v2 v5) a6 w) a7 w a8 w a9 w (ix2 p e)
      = hid (fun c d => (![a0, a1, a2, a3, a4, a5, a6, a7, a8, a9] c) (ix2 p d)) (fun d => v0 (ix2 p d))
          (fun d e => w (ix2 d e)) (fun d e => v2 (ix2 d e)) (fun e => v5 (ix2 (0 : Fin 1) e)) e := by
  rw [pay8_apply, pay6_apply, pay4_apply, pay5_apply, pay7_apply, pay3_apply]
  unfold hid
  rw [← acc10]
  rfl

/-- The first output block at `(p, q)`: the linear layer on the hidden row, bias row added. -/
theorem pay1_apply (v103 : FVec Ideal S2048x128 .f32) (v104 : Vec Ideal S1x128 .f32) (p : Fin 2048) (q : Fin 128) :
    k0_pay1 v103 (k0_pay10 v104) (ix2 p q) = v103 (ix2 p q) + v104 (ix2 (0 : Fin 1) q) := by
  simp only [k0_pay1, k0_pay10, addf_apply, bias128_apply]

/-- The product of the hidden block with the first output weights at `(p, q)`. -/
theorem pay9_apply (v8 v63 v69 : FVec Ideal S2048x256 .f32) (v73 : Vec Ideal S2048x128 .bf16)
    (v75 : Vec Ideal S128x256 .bf16) (v82 : Vec Ideal S2048x128 .bf16) (v84 : Vec Ideal S128x256 .bf16)
    (v91 : Vec Ideal S2048x128 .bf16) (v93 : Vec Ideal S128x256 .bf16) (v101 : Vec Ideal S256x128 .bf16)
    (p : Fin 2048) (q : Fin 128) :
    k0_pay9 v8 v63 v69 v73 v75 v82 v84 v91 v93 v101 (ix2 p q)
      = ∑ e : Fin 256, k0_pay8 v8 v63 v69 v73 v75 v82 v84 v91 v93 (ix2 p e) * v101 (ix2 e q) := by
  simp only [k0_pay9, out_apply]

/-- Softplus as the body spells it (the comparison of a value with itself finds no difference on the extended
    reals, so the guarded branch is never taken; `0 - |x|` is `-|x|`). -/
theorem softplus_body (x : EReal) :
    Scalar.select (FloatOps.cmpf (F := Ideal) (φ := .f32) .one (x - 0) (x - 0)) (x + 0)
        (max x 0 + Ideal.log1p (Ideal.exp (0 - max (x - 0) (-(x - 0))))) = softplus x := by
  have h : FloatOps.cmpf (F := Ideal) (φ := .f32) .one (x - 0) (x - 0) = 0#1 := by
    rw [Ideal.cmpf_def]; simp [Ideal.cmp]
  rw [h, select_zero, sub_zero, zero_sub]
  rfl

/-- The second output block at `(p, q)`: softplus of the linear layer on the hidden row, bias row added. -/
theorem pay2_apply (v100 : FVec Ideal S2048x256 .bf16) (v108 : Vec Ideal S256x128 .bf16) (v111 : Vec Ideal S1x128 .f32)
    (p : Fin 2048) (q : Fin 128) :
    k0_pay2 v100 v108 v111 (ix2 p q)
      = softplus ((∑ e : Fin 256, v100 (ix2 p e) * v108 (ix2 e q)) + v111 (ix2 (0 : Fin 1) q)) := by
  simp only [k0_pay2, select_apply, cmpf_apply, addf_apply, subf_apply, relu_apply, broadcast_apply, zero_bits,
    log1p_apply, exp_apply, absf_apply, out_apply, bias128_apply]
  exact softplus_body _

end Cert.KernelIdeal.Rows

end
-- ==== Proof.Block.lean ====
/-
  What one grid point leaves in each output block, row by row.

  At a grid point the body loads the whole target block, the whole weight and bias blocks, and ten 128-wide
  column bands of the 2048 × 1280 context block (band `k` starts at column `128 k`), and stores each result block
  whole. So entry `(p, q)` of the first result block is the linear layer `lin` on the hidden row `hid` of row `p` of
  the context and target blocks, and entry `(p, q)` of the second is softplus of the other linear layer on the
  same hidden row.
-/
import proofs.«126646_j84894323573021_2_alg».proof.Proof.Gen.KernelIdeal.Frame
import proofs.«126646_j84894323573021_2_alg».proof.Proof.Body
import Idealize.ShloMosaic.Lib.Pipeline.Value

noncomputable section

open scoped BigOperators

namespace Cert.KernelIdeal.Rows

open Cert.KernelIdeal Cert.KernelIdeal.Gen Idealize.ShloMosaic Idealize.ShloMosaic.ValueIdx Cert.Encoder

theorem hz : (![0, 0] : Fin 2 → Nat) = fun _ => 0 := funext fun a => by fin_cases a <;> rfl

/-- The 128-wide band of the context block that starts at column `128 k`, at `(p, d)`. -/
theorem ld_band (x0 : Vec Ideal S2048x1280 .bf16) (off : Nat)
    (inb : ∀ a, (![0, off] : Fin 2 → Nat) a + S2048x128.size a ≤ S2048x1280.size a)
    (k : Fin 10) (hk : off = k.val * 128) (p : Fin 2048) (d : Fin 128) :
    View.ld x0 (Rect.unit (s := S2048x1280) ![0, off] S2048x128.size inb) (ix2 p d) = x0 (ix2 p (col k d)) := by
  subst hk
  refine congrArg x0 (funext fun a => Fin.ext ?_)
  match a with
  | ⟨0, _⟩ => show 0 + 1 * p.val = p.val; omega
  | ⟨1, _⟩ => show k.val * 128 + 1 * d.val = k.val * 128 + d.val; omega

/-- The ten bands the body loads are the ten contexts' columns of the row. -/
theorem bands (x0 : Vec Ideal S2048x1280 .bf16) (p : Fin 2048) (k : Fin 10) (d : Fin 128) :
    (![View.ld x0 r0_3, View.ld x0 r0_4, View.ld x0 r0_5, View.ld x0 r0_6, View.ld x0 r0_7, View.ld x0 r0_8,
        View.ld x0 r0_9, View.ld x0 r0_10, View.ld x0 r0_11, View.ld x0 r0_12] : Fin 10 → Vec Ideal S2048x128 .bf16)
        k (ix2 p d)
      = x0 (ix2 p (col k d)) := by
  match k with
  | ⟨0, _⟩ => exact ld_band x0 0 _ ⟨0, by omega⟩ rfl p d
  | ⟨1, _⟩ => exact ld_band x0 128 _ ⟨1, by omega⟩ rfl p d
  | ⟨2, _⟩ => exact ld_band x0 256 _ ⟨2, by omega⟩ rfl p d
  | ⟨3, _⟩ => exact ld_band x0 384 _ ⟨3, by omega⟩ rfl p d
  | ⟨4, _⟩ => exact ld_band x0 512 _ ⟨4, by omega⟩ rfl p d
  | ⟨5, _⟩ => exact ld_band x0 640 _ ⟨5, by omega⟩ rfl p d
  | ⟨6, _⟩ => exact ld_band x0 768 _ ⟨6, by omega⟩ rfl p d
  | ⟨7, _⟩ => exact ld_band x0 896 _ ⟨7, by omega⟩ rfl p d
  | ⟨8, _⟩ => exact ld_band x0 1024 _ ⟨8, by omega⟩ rfl p d
  | ⟨9, _⟩ => exact ld_band x0 1152 _ ⟨9, by omega⟩ rfl p d

section
variable (x0 : Vec Ideal S2048x1280 .bf16) (x1 : Vec Ideal S2048x128 .bf16) (x2 x3 : Vec Ideal S128x256 .bf16)
  (x4 : Vec Ideal S1x256 .f32) (x5 : Vec Ideal S256x128 .bf16) (x6 : Vec Ideal S1x128 .f32)
  (x7 : Vec Ideal S256x128 .bf16) (x8 : Vec Ideal S1x128 .f32)

/-- The hidden row `p` of a block. -/
def hidB (p : Fin 2048) : Fin 256 → EReal :=
  hid (fun k d => x0 (ix2 p (col k d))) (fun d => x1 (ix2 p d)) (fun d e => x2 (ix2 d e)) (fun d e => x3 (ix2 d e))
    (fun e => x4 (ix2 (0 : Fin 1) e))

/-- THE FIRST RESULT BLOCK at `(p, q)`. -/
theorem out9_row (p : Fin 2048) (q : Fin 128) :
    out0_9 x0 x1 x2 x3 x4 x5 x6 x7 x8 (ix2 p q)
      = lin (hidB x0 x1 x2 x3 x4 p) (fun e q => x5 (ix2 e q)) (fun q => x6 (ix2 (0 : Fin 1) q)) q := by
  unfold out0_9
  rw [View.canon_unit_zero hz]
  simp only [View.ld_unit_zero (S := S2048x128) hz, View.ld_unit_zero (S := S128x256) hz,
    View.ld_unit_zero (S := S1x256) hz, View.ld_unit_zero (S := S256x128) hz, View.ld_unit_zero (S := S1x128) hz]
  rw [pay1_apply, pay9_apply]
  simp only [hid_block, bands]
  unfold lin hidB
  rfl

/-- THE SECOND RESULT BLOCK at `(p, q)`. -/
theorem out10_row (p : Fin 2048) (q : Fin 128) :
    out0_10 x0 x1 x2 x3 x4 x5 x6 x7 x8 (ix2 p q)
      = softplus (lin (hidB x0 x1 x2 x3 x4 p) (fun e q => x7 (ix2 e q)) (fun q => x8 (ix2 (0 : Fin 1) q)) q) := by
  unfold out0_10
  rw [View.canon_unit_zero hz]
  simp only [View.ld_unit_zero (S := S2048x128) hz, View.ld_unit_zero (S := S128x256) hz,
    View.ld_unit_zero (S := S1x256) hz, View.ld_unit_zero (S := S256x128) hz, View.ld_unit_zero (S := S1x128) hz]
  rw [pay2_apply]
  simp only [hid_block, bands]
  unfold lin hidB
  rfl

end

end Cert.KernelIdeal.Rows

end
-- ==== Proof.Prefix.lean ====
/-
  The arrays the pipeline's windows stage, as functions of the argument arrays.

  Before the one pallas_call the host program gathers the target's and the contexts' embeddings from the table
  (narrowed to bf16 first, which changes nothing on the extended reals), flattens the ten context embeddings of
  a row into one row of 1280, cuts the first weight matrix into its context half and its target half and
  transposes each, transposes the two output weight matrices, and gives each bias vector a unit leading axis.
  Each of these nine arrays is read here at an index given by coordinates. The two gathers are the reference's
  own (the same rows of the same table), so they are named by the reference's stages and never opened.
-/
import proofs.«126646_j84894323573021_2_alg».proof.Proof.Gen.KernelIdeal.Frame
import proofs.«126646_j84894323573021_2_alg».proof.Proof.Gen.ReferenceIdeal.Read
import proofs.«126646_j84894323573021_2_alg».proof.Proof.Spec
import Idealize.ShloMosaic.Lib.StableHlo.Run
import Idealize.ShloMosaic.Lib.ValueIdx
import Idealize.ShloMosaic.Lib.Pipeline.Value

noncomputable section

namespace Cert.KernelIdeal.Prefix

open Cert.KernelIdeal Cert.KernelIdeal.Gen Idealize.ShloMosaic Idealize.ShloMosaic.TcCoe Idealize.ShloMosaic.StableHlo
  Idealize.ShloMosaic.ValueIdx Idealize.SL.Sem Cert.Encoder

variable (m : (ℓ : Loc nD τ sig) → Buf (Elt Ideal) ℓ) (c : Dev nD)

/-! ## The argument arrays as launched -/

abbrev A0 : (⟨S16384, .i32⟩ : BufTy).Contents (Elt Ideal) := m ((c : Thread nD τ).loc main_arg0)
abbrev A1 : (⟨S16384x10, .i32⟩ : BufTy).Contents (Elt Ideal) := m ((c : Thread nD τ).loc main_arg1)
abbrev A2 : (⟨S100000x128, .f32⟩ : BufTy).Contents (Elt Ideal) := m ((c : Thread nD τ).loc main_arg2)
abbrev A3 : (⟨S256x256, .f32⟩ : BufTy).Contents (Elt Ideal) := m ((c : Thread nD τ).loc main_arg3)
abbrev A4 : (⟨S256, .f32⟩ : BufTy).Contents (Elt Ideal) := m ((c : Thread nD τ).loc main_arg4)
abbrev A5 : (⟨S128x256, .f32⟩ : BufTy).Contents (Elt Ideal) := m ((c : Thread nD τ).loc main_arg5)
abbrev A6 : (⟨S128, .f32⟩ : BufTy).Contents (Elt Ideal) := m ((c : Thread nD τ).loc main_arg6)
abbrev A7 : (⟨S128x256, .f32⟩ : BufTy).Contents (Elt Ideal) := m ((c : Thread nD τ).loc main_arg7)
abbrev A8 : (⟨S128, .f32⟩ : BufTy).Contents (Elt Ideal) := m ((c : Thread nD τ).loc main_arg8)

/-- The gathered target embeddings, `[16384, 128]`: the reference's own gather of the same rows. -/
abbrev tw : S16384x128.Idx → EReal := Cert.ReferenceIdeal.Read.val_main_v6 (F := Ideal) (A0 m c) (A2 m c)

/-- The gathered context embeddings, `[16384, 10, 128]`: the reference's own gather of the same rows. -/
abbrev cw : S16384x10x128.Idx → EReal := Cert.ReferenceIdeal.Read.val_main_v13 (F := Ideal) (A1 m c) (A2 m c)

/-! ## Each staged array as the host operations leave it -/

theorem V_tw : (V m c main_v7 : S16384x128.Idx → EReal) = tw m c := by
  dsimp only [V, hostOps0]; after_results_simp; rfl

theorem V_cw : (V m c main_v15 : S16384x1280.Idx → EReal)
    = shapeCast S16384x1280 (cw m c) shapeCasts_S16384x10x128_S16384x1280 := by
  dsimp only [V, hostOps0]; after_results_simp; rfl

theorem V_wc : (V m c main_v18 : S128x256.Idx → EReal)
    = transpose S128x256 [1, 0] (extractStridedSlice S256x128 ![0, 0] (A3 m c) slices_S256x256_S256x128_0_0)
        transposes_S256x128_S128x256_1_0 := by
  dsimp only [V, hostOps0]; after_results_simp; rfl

theorem V_wt : (V m c main_v21 : S128x256.Idx → EReal)
    = transpose S128x256 [1, 0] (extractStridedSlice S256x128 ![0, 128] (A3 m c) slices_S256x256_S256x128_0_128)
        transposes_S256x128_S128x256_1_0 := by
  dsimp only [V, hostOps0]; after_results_simp; rfl

theorem V_mb : (V m c main_v26 : S1x256.Idx → EReal) = shapeCast S1x256 (A4 m c) shapeCasts_S256_S1x256 := by
  dsimp only [V, hostOps0]; after_results_simp; rfl

theorem V_uw : (V m c main_v23 : S256x128.Idx → EReal)
    = transpose S256x128 [1, 0] (A5 m c) transposes_S128x256_S256x128_1_0 := by
  dsimp only [V, hostOps0]; after_results_simp; rfl

theorem V_ub : (V m c main_v27 : S1x128.Idx → EReal) = shapeCast S1x128 (A6 m c) shapeCasts_S128_S1x128 := by
  dsimp only [V, hostOps0]; after_results_simp; rfl

theorem V_ww : (V m c main_v25 : S256x128.Idx → EReal)
    = transpose S256x128 [1, 0] (A7 m c) transposes_S128x256_S256x128_1_0 := by
  dsimp only [V, hostOps0]; after_results_simp; rfl

theorem V_wb : (V m c main_v28 : S1x128.Idx → EReal) = shapeCast S1x128 (A8 m c) shapeCasts_S128_S1x128 := by
  dsimp only [V, hostOps0]; after_results_simp; rfl

/-! ## Read at coordinates -/

/-- Column `col k d` of the flattened context row `b` is entry `d` of context `k` of that row. -/
theorem cw_apply (b : Fin 16384) (k : Fin 10) (d : Fin 128) :
    (V m c main_v15 : S16384x1280.Idx → EReal) (ix2 b (col k d)) = cw m c (ix3 b k d) := by
  rw [V_cw]
  refine shapeCast_apply _ _ (ix2 b (col k d)) (ix3 b k d) ?_
  rw [Shape.rowMajor_val_three, Shape.rowMajor_val_two]
  show (b.val * 10 + k.val) * 128 + d.val = b.val * 1280 + (k.val * 128 + d.val)
  omega

/-- The context half of the first weights, transposed: entry `(d, e)` is `M_w[e, d]`. -/
theorem wc_apply (d : Fin 128) (e : Fin 256) :
    (V m c main_v18 : S128x256.Idx → EReal) (ix2 d e) = A3 m c (ix2 e (lo d)) := by
  rw [V_wc]
  refine (transpose_apply [1, 0] _ _ (ix2 d e) (ix2 e d) (fun b => by
    match b with
    | ⟨0, _⟩ => rfl
    | ⟨1, _⟩ => rfl)).trans ?_
  refine extractStridedSlice_apply _ _ _ (ix2 e d) (ix2 e (lo d)) (fun a => by
    match a with
    | ⟨0, _⟩ => show e.val = 0 + e.val; omega
    | ⟨1, _⟩ => show d.val = 0 + d.val; omega)

/-- The target half of the first weights, transposed: entry `(d, e)` is `M_w[e, 128 + d]`. -/
theorem wt_apply (d : Fin 128) (e : Fin 256) :
    (V m c main_v21 : S128x256.Idx → EReal) (ix2 d e) = A3 m c (ix2 e (hi d)) := by
  rw [V_wt]
  refine (transpose_apply [1, 0] _ _ (ix2 d e) (ix2 e d) (fun b => by
    match b with
    | ⟨0, _⟩ => rfl
    | ⟨1, _⟩ => rfl)).trans ?_
  refine extractStridedSlice_apply _ _ _ (ix2 e d) (ix2 e (hi d)) (fun a => by
    match a with
    | ⟨0, _⟩ => show e.val = 0 + e.val; omega
    | ⟨1, _⟩ => rfl)

/-- A bias vector given a unit leading axis reads its entry. -/
theorem mb_apply (e : Fin 256) : (V m c main_v26 : S1x256.Idx → EReal) (ix2 (0 : Fin 1) e) = A4 m c (ix1 e) := by
  rw [V_mb]
  refine shapeCast_apply _ _ (ix2 (0 : Fin 1) e) (ix1 e) ?_
  rw [Shape.rowMajor_val_one, Shape.rowMajor_val_two]
  show e.val = 0 * 256 + e.val
  omega

theorem ub_apply (q : Fin 128) : (V m c main_v27 : S1x128.Idx → EReal) (ix2 (0 : Fin 1) q) = A6 m c (ix1 q) := by
  rw [V_ub]
  refine shapeCast_apply _ _ (ix2 (0 : Fin 1) q) (ix1 q) ?_
  rw [Shape.rowMajor_val_one, Shape.rowMajor_val_two]
  show q.val = 0 * 128 + q.val
  omega

theorem wb_apply (q : Fin 128) : (V m c main_v28 : S1x128.Idx → EReal) (ix2 (0 : Fin 1) q) = A8 m c (ix1 q) := by
  rw [V_wb]
  refine shapeCast_apply _ _ (ix2 (0 : Fin 1) q) (ix1 q) ?_
  rw [Shape.rowMajor_val_one, Shape.rowMajor_val_two]
  show q.val = 0 * 128 + q.val
  omega

/-- The output weights transposed: entry `(e, q)` is `U_w[q, e]`. -/
theorem uw_apply (e : Fin 256) (q : Fin 128) :
    (V m c main_v23 : S256x128.Idx → EReal) (ix2 e q) = A5 m c (ix2 q e) := by
  rw [V_uw]
  exact transpose_apply [1, 0] _ _ (ix2 e q) (ix2 q e) (fun b => by
    match b with
    | ⟨0, _⟩ => rfl
    | ⟨1, _⟩ => rfl)

theorem ww_apply (e : Fin 256) (q : Fin 128) :
    (V m c main_v25 : S256x128.Idx → EReal) (ix2 e q) = A7 m c (ix2 q e) := by
  rw [V_ww]
  exact transpose_apply [1, 0] _ _ (ix2 e q) (ix2 q e) (fun b => by
    match b with
    | ⟨0, _⟩ => rfl
    | ⟨1, _⟩ => rfl)

end Cert.KernelIdeal.Prefix

end
-- ==== Proof.Ref.lean ====
/-
  The reference read one batch row at a time.

  The reference gathers the target's and the ten contexts' embeddings, joins each context with the target along the
  last axis, takes the 256-long dot product of each joined vector with every row of the first weight matrix, adds
  the bias, clips at zero, sums over the ten contexts and feeds the 256 hidden units to two linear layers, the
  second followed by softplus. Read at row `b` through the generated one-operation lemmas, its hidden unit `e` is
  the row function `hid` of the gathered embeddings of that row (the sum over the joined axis split into its two
  halves), and its two results at `(b, q)` are `lin` of that hidden row and softplus of `lin`.
  The two gathers are never opened: both programs gather the same rows from the same table.
-/
import proofs.«126646_j84894323573021_2_alg».proof.Proof.Gen.ReferenceIdeal.Read
import proofs.«126646_j84894323573021_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic
  Idealize.ShloMosaic.ValueIdx Cert.Encoder

/-! ## Where each operation reads, in coordinates -/

theorem idx22 (b : Fin 16384) (e : Fin 256) (c : Fin 10) : idx_main_v22 (ix2 b e) c = ix3 b c e :=
  funext fun a => by match a with | ⟨0, _⟩ => rfl | ⟨1, _⟩ => rfl | ⟨2, _⟩ => rfl

theorem lidx17 (b : Fin 16384) (c : Fin 10) (e k : Fin 256) : lidx_main_v17 (ix3 b c e) k = ix3 b c k :=
  funext fun a => by match a with | ⟨0, _⟩ => rfl | ⟨1, _⟩ => rfl | ⟨2, _⟩ => rfl

theorem ridx17 (b : Fin 16384) (c : Fin 10) (e k : Fin 256) : ridx_main_v17 (ix3 b c e) k = ix2 e k :=
  funext fun a => by match a with | ⟨0, _⟩ => rfl | ⟨1, _⟩ => rfl

theorem idx1819 (b : Fin 16384) (c : Fin 10) (e : Fin 256) : idx_main_v18 (idx_main_v19 (ix3 b c e)) = ix1 e :=
  funext fun a => by match a with | ⟨0, _⟩ => rfl

theorem idx1415 (b : Fin 16384) (c : Fin 10) (d : Fin 128) : idx_main_v14 (idx_main_v15 (ix3 b c d)) = ix2 b d :=
  funext fun a => by match a with | ⟨0, _⟩ => rfl | ⟨1, _⟩ => rfl

theorem lidx24 (b : Fin 16384) (q : Fin 128) (k : Fin 256) : lidx_main_v24 (ix2 b q) k = ix2 b k :=
  funext fun a => by match a with | ⟨0, _⟩ => rfl | ⟨1, _⟩ => rfl

theorem ridx24 (b : Fin 16384) (q : Fin 128) (k : Fin 256) : ridx_main_v24 (ix2 b q) k = ix2 k q :=
  funext fun a => by match a with | ⟨0, _⟩ => rfl | ⟨1, _⟩ => rfl

theorem idx23 (k : Fin 256) (q : Fin 128) : idx_main_v23 (ix2 k q) = ix2 q k :=
  funext fun a => by match a with | ⟨0, _⟩ => rfl | ⟨1, _⟩ => rfl

theorem idx2526 (b : Fin 16384) (q : Fin 128) : idx_main_v25 (idx_main_v26 (ix2 b q)) = ix1 q :=
  funext fun a => by match a with | ⟨0, _⟩ => rfl

theorem lidx29 (b : Fin 16384) (q : Fin 128) (k : Fin 256) : lidx_main_v29 (ix2 b q) k = ix2 b k :=
  funext fun a => by match a with | ⟨0, _⟩ => rfl | ⟨1, _⟩ => rfl

theorem ridx29 (b : Fin 16384) (q : Fin 128) (k : Fin 256) : ridx_main_v29 (ix2 b q) k = ix2 k q :=
  funext fun a => by match a with | ⟨0, _⟩ => rfl | ⟨1, _⟩ => rfl

theorem idx28 (k : Fin 256) (q : Fin 128) : idx_main_v28 (ix2 k q) = ix2 q k :=
  funext fun a => by match a with | ⟨0, _⟩ => rfl | ⟨1, _⟩ => rfl

theorem idx3031 (b : Fin 16384) (q : Fin 128) : idx_main_v30 (idx_main_v31 (ix2 b q)) = ix1 q :=
  funext fun a => by match a with | ⟨0, _⟩ => rfl

/-- The zero the reference writes is the extended real zero. -/
theorem zero_bits : (FloatOps.ofBits .f32 0x00000000#32 : Ideal .f32) = 0 := Ideal.ofBits_zero_f32

/-! ## The joined vector -/

/-- The first half of the joined vector is the context's embedding. -/
theorem join_lo (A B : S16384x10x128.Idx → EReal)
    (h : Shape.Concatenates [S16384x10x128, S16384x10x128] S16384x10x256 2)
    (b : Fin 16384) (c : Fin 10) (d : Fin 128) :
    concatenate S16384x10x256 2 [⟨S16384x10x128, A⟩, ⟨S16384x10x128, B⟩] h (ix3 b c (lo d)) = A (ix3 b c d) :=
  concatenate_apply_piece (t := S16384x10x256) (2 : Fin 3) [⟨S16384x10x128, A⟩, ⟨S16384x10x128, B⟩] h (ix3 b c (lo d)) 0
    (Nat.zero_lt_succ _) S16384x10x128 A rfl rfl 0 rfl (ix3 b c d)
    (fun ax hne => by
      match ax with
      | ⟨0, _⟩ => rfl
      | ⟨1, _⟩ => rfl
      | ⟨2, _⟩ => exact absurd rfl hne)
    (by show 0 + d.val = d.val; omega)

/-- The second half of the joined vector is the target's embedding. -/
theorem join_hi (A B : S16384x10x128.Idx → EReal)
    (h : Shape.Concatenates [S16384x10x128, S16384x10x128] S16384x10x256 2)
    (b : Fin 16384) (c : Fin 10) (d : Fin 128) :
    concatenate S16384x10x256 2 [⟨S16384x10x128, A⟩, ⟨S16384x10x128, B⟩] h (ix3 b c (hi d)) = B (ix3 b c d) :=
  concatenate_apply_piece (t := S16384x10x256) (2 : Fin 3) [⟨S16384x10x128, A⟩, ⟨S16384x10x128, B⟩] h (ix3 b c (hi d)) 1
    (Nat.lt_succ_self _) S16384x10x128 B rfl rfl 128 rfl (ix3 b c d)
    (fun ax hne => by
      match ax with
      | ⟨0, _⟩ => rfl
      | ⟨1, _⟩ => rfl
      | ⟨2, _⟩ => exact absurd rfl hne)
    rfl

section
variable (x0 : (⟨S16384, .i32⟩ : BufTy).Contents (Elt Ideal)) (x1 : (⟨S16384x10, .i32⟩ : BufTy).Contents (Elt Ideal))
  (x2 : (⟨S100000x128, .f32⟩ : BufTy).Contents (Elt Ideal)) (x3 : (⟨S256x256, .f32⟩ : BufTy).Contents (Elt Ideal))
  (x4 : (⟨S256, .f32⟩ : BufTy).Contents (Elt Ideal))

/-- The target embedding spread over the contexts, at `(b, c, d)`. -/
theorem spread_apply (b : Fin 16384) (c : Fin 10) (d : Fin 128) :
    val_main_v15 (F := Ideal) x0 x2 (ix3 b c d) = val_main_v6 (F := Ideal) x0 x2 (ix2 b d) := by
  rw [val_main_v15_apply, val_main_v14_apply, idx1415]

/-- The hidden row of the reference: `hid` of the row's gathered embeddings, the weight rows split into their halves. -/
def hidRow (b : Fin 16384) : Fin 256 → EReal :=
  hid (fun c d => val_main_v13 (F := Ideal) x1 x2 (ix3 b c d)) (fun d => val_main_v6 (F := Ideal) x0 x2 (ix2 b d))
    (fun d e => x3 (ix2 e (lo d))) (fun d e => x3 (ix2 e (hi d))) (fun e => x4 (ix1 e))

/-- THE REFERENCE'S HIDDEN UNIT `(b, e)`. -/
theorem hid_ref (b : Fin 16384) (e : Fin 256) :
    val_main_v22 (F := Ideal) x0 x1 x2 x3 x4 (ix2 b e) = hidRow x0 x1 x2 x3 x4 b e := by
  rw [val_main_v22_apply, val_main_cst_apply, zero_bits]
  refine Eq.trans ?_ (hid_of_joined (fun c k => val_main_v16 (F := Ideal) x0 x1 x2 (ix3 b c k))
    (fun e k => x3 (ix2 e k)) (fun e => x4 (ix1 e)) _ _
    (fun c d => join_lo _ _ _ b c d)
    (fun c d => (join_hi _ _ _ b c d).trans (spread_apply x0 x2 b c d)) e)
  refine congrArg (0 + ·) (Finset.sum_congr rfl fun c _ => ?_)
  rw [idx22, val_main_v21_apply, val_main_v20_apply, val_main_v17_apply, val_main_call0_v0_apply,
    val_main_call0_cst_apply, val_main_v19_apply, val_main_v18_apply, zero_bits, idx1819]
  simp only [lidx17, ridx17]
  rfl

end

/-- THE REFERENCE'S FIRST RESULT at `(b, q)`. -/
theorem mu_ref (x0 : (⟨S16384, .i32⟩ : BufTy).Contents (Elt Ideal)) (x1 : (⟨S16384x10, .i32⟩ : BufTy).Contents (Elt Ideal))
    (x2 : (⟨S100000x128, .f32⟩ : BufTy).Contents (Elt Ideal)) (x3 : (⟨S256x256, .f32⟩ : BufTy).Contents (Elt Ideal))
    (x4 : (⟨S256, .f32⟩ : BufTy).Contents (Elt Ideal)) (x5 : (⟨S128x256, .f32⟩ : BufTy).Contents (Elt Ideal))
    (x6 : (⟨S128, .f32⟩ : BufTy).Contents (Elt Ideal)) (b : Fin 16384) (q : Fin 128) :
    val_main_v27 (F := Ideal) x0 x1 x2 x3 x4 x5 x6 (ix2 b q)
      = lin (hidRow x0 x1 x2 x3 x4 b) (fun e q => x5 (ix2 q e)) (fun q => x6 (ix1 q)) q := by
  rw [val_main_v27_apply, val_main_v24_apply, val_main_v26_apply, val_main_v25_apply, idx2526]
  simp only [lidx24, ridx24, val_main_v23_apply, idx23, hid_ref]
  rfl

/-- Softplus as the reference spells it (the comparison of a value with itself finds no difference on the extended
    reals, so the guarded branch is never taken). -/
theorem softplus_host (x : EReal) :
    Scalar.select (FloatOps.cmpf (F := Ideal) (φ := .f32) .une (x - 0) (x - 0)) (x + 0)
        (max x 0 + Ideal.log1p (Ideal.exp (-(max (x - 0) (-(x - 0)))))) = softplus x := by
  have h : FloatOps.cmpf (F := Ideal) (φ := .f32) .une (x - 0) (x - 0) = 0#1 := by
    rw [Ideal.cmpf_def]; simp [Ideal.cmp]
  rw [h, select_zero, sub_zero]
  rfl

/-- THE REFERENCE'S SECOND RESULT at `(b, q)`. -/
theorem sigma_ref (x0 : (⟨S16384, .i32⟩ : BufTy).Contents (Elt Ideal)) (x1 : (⟨S16384x10, .i32⟩ : BufTy).Contents (Elt Ideal))
    (x2 : (⟨S100000x128, .f32⟩ : BufTy).Contents (Elt Ideal)) (x3 : (⟨S256x256, .f32⟩ : BufTy).Contents (Elt Ideal))
    (x4 : (⟨S256, .f32⟩ : BufTy).Contents (Elt Ideal)) (x7 : (⟨S128x256, .f32⟩ : BufTy).Contents (Elt Ideal))
    (x8 : (⟨S128, .f32⟩ : BufTy).Contents (Elt Ideal)) (b : Fin 16384) (q : Fin 128) :
    val_main_v33 (F := Ideal) x0 x1 x2 x3 x4 x7 x8 (ix2 b q)
      = softplus (lin (hidRow x0 x1 x2 x3 x4 b) (fun e q => x7 (ix2 q e)) (fun q => x8 (ix1 q)) q) := by
  have hlin : val_main_v32 (F := Ideal) x0 x1 x2 x3 x4 x7 x8 (ix2 b q)
      = lin (hidRow x0 x1 x2 x3 x4 b) (fun e q => x7 (ix2 q e)) (fun q => x8 (ix1 q)) q := by
    rw [val_main_v32_apply, val_main_v29_apply, val_main_v31_apply, val_main_v30_apply, idx3031]
    simp only [lidx29, ridx29, val_main_v28_apply, idx28, hid_ref]
    rfl
  rw [val_main_v33_apply, val_main_call1_v4_apply, val_main_call1_v3_apply, val_main_call1_v2_apply,
    val_main_call1_cst_apply, val_main_call1_v6_apply, val_main_call1_v5_apply, val_main_call1_cst_apply,
    val_main_call1_v11_apply, val_main_call1_v1_apply, val_main_call1_v0_apply, val_main_call1_cst_apply,
    val_main_call1_v10_apply, val_main_call1_v9_apply, val_main_call1_v8_apply, val_main_call1_v7_apply,
    val_main_call1_v3_apply, val_main_call1_v2_apply, val_main_call1_cst_apply, zero_bits, hlin]
  generalize lin (hidRow x0 x1 x2 x3 x4 b) (fun e q => x7 (ix2 q e)) (fun q => x8 (ix1 q)) q = y
  exact softplus_host y

end Cert.ReferenceIdeal.Rows

end
-- ==== Proof.Final.lean ====
/-
  The two result arrays after the run, as functions of the argument arrays.

  The grid has eight points; point `t` works on rows `2048 t … 2048 t + 2047` of the batch: the context and target
  windows and the two result windows move with `t` along the rows, the seven weight and bias windows stay on their
  whole arrays. So what a point writes back is the restriction to its rows of ONE function of the argument arrays —
  entry `(b, q)` is the linear layer on the hidden row of batch row `b` (softplus applied, for the second result) —,
  the eight blocks cover the arrays, and each array ends holding that function. The hidden row of batch row `b`
  is written with the reference's own gathers, so the same function is what the reference computes at `(b, q)`.
-/
import proofs.«126646_j84894323573021_2_alg».proof.Proof.Gen.KernelIdeal.Value
import proofs.«126646_j84894323573021_2_alg».proof.Proof.Block
import proofs.«126646_j84894323573021_2_alg».proof.Proof.Prefix
import proofs.«126646_j84894323573021_2_alg».proof.Proof.Ref
import Idealize.ShloMosaic.Lib.Pipeline.Value

noncomputable section

open scoped BigOperators

namespace Cert.KernelIdeal.Final

open Cert.KernelIdeal Cert.KernelIdeal.Gen Cert.KernelIdeal.Rows Cert.KernelIdeal.Prefix Idealize.ShloMosaic
  Idealize.ShloMosaic.TcCoe Idealize.ShloMosaic.ValueIdx Idealize.SL.Sem Cert.Encoder
open Idealize.ShloMosaic.Pipeline (Dat)

variable (m : (ℓ : Loc nD τ sig) → Buf (Elt Ideal) ℓ) (ρ : Dev nD → PrngReg)

/-! ## The results as functions of the arguments -/

/-- The hidden row of batch row `b`. -/
abbrev hidA (c : Dev nD) (b : Fin 16384) : Fin 256 → EReal :=
  Cert.ReferenceIdeal.Rows.hidRow (A0 m c) (A1 m c) (A2 m c) (A3 m c) (A4 m c) b

/-- The first result: the linear layer with weights `U_w`, bias `U_b` on the hidden rows. -/
def Gmu (c : Dev nD) : S16384x128.Idx → EReal := fun i =>
  lin (hidA m c (i 0)) (fun e q => A5 m c (ix2 q e)) (fun q => A6 m c (ix1 q)) (i 1)

/-- The second result: softplus of the linear layer with weights `W_w`, bias `W_b` on the hidden rows. -/
def Gsigma (c : Dev nD) : S16384x128.Idx → EReal := fun i =>
  softplus (lin (hidA m c (i 0)) (fun e q => A7 m c (ix2 q e)) (fun q => A8 m c (ix1 q)) (i 1))

/-- The reference's first result is that function of its arguments. -/
theorem ref_mu_eq (c : Dev nD) :
    Cert.ReferenceIdeal.Read.val_main_v27 (F := Ideal) (A0 m c) (A1 m c) (A2 m c) (A3 m c) (A4 m c) (A5 m c) (A6 m c)
      = Gmu m c :=
  funext fun i => by
    obtain ⟨b, q, rfl⟩ : ∃ (b : Fin 16384) (q : Fin 128), i = ix2 b q := ⟨i 0, i 1, eq_ix2 i⟩
    exact Cert.ReferenceIdeal.Rows.mu_ref (A0 m c) (A1 m c) (A2 m c) (A3 m c) (A4 m c) (A5 m c) (A6 m c) b q

/-- The reference's second result is that function of its arguments. -/
theorem ref_sigma_eq (c : Dev nD) :
    Cert.ReferenceIdeal.Read.val_main_v33 (F := Ideal) (A0 m c) (A1 m c) (A2 m c) (A3 m c) (A4 m c) (A7 m c) (A8 m c)
      = Gsigma m c :=
  funext fun i => by
    obtain ⟨b, q, rfl⟩ : ∃ (b : Fin 16384) (q : Fin 128), i = ix2 b q := ⟨i 0, i 1, eq_ix2 i⟩
    exact Cert.ReferenceIdeal.Rows.sigma_ref (A0 m c) (A1 m c) (A2 m c) (A3 m c) (A4 m c) (A7 m c) (A8 m c) b q

/-! ## The index maps, decided over the eight points -/

theorem i0 : ∀ t : Fin cfg0.N, win0_0.index t (0 : Fin 2) = win0_9.index t (0 : Fin 2) ∧ win0_0.index t (1 : Fin 2) = 0 :=
  (by decide +kernel : ∀ t : Fin grid0.N, _)
theorem i1 : ∀ t : Fin cfg0.N, win0_1.index t (0 : Fin 2) = win0_9.index t (0 : Fin 2) ∧ win0_1.index t (1 : Fin 2) = 0 :=
  (by decide +kernel : ∀ t : Fin grid0.N, _)
theorem i2 : ∀ t : Fin cfg0.N, win0_2.index t (0 : Fin 2) = 0 ∧ win0_2.index t (1 : Fin 2) = 0 :=
  (by decide +kernel : ∀ t : Fin grid0.N, _)
theorem i3 : ∀ t : Fin cfg0.N, win0_3.index t (0 : Fin 2) = 0 ∧ win0_3.index t (1 : Fin 2) = 0 :=
  (by decide +kernel : ∀ t : Fin grid0.N, _)
theorem i4 : ∀ t : Fin cfg0.N, win0_4.index t (0 : Fin 2) = 0 ∧ win0_4.index t (1 : Fin 2) = 0 :=
  (by decide +kernel : ∀ t : Fin grid0.N, _)
theorem i5 : ∀ t : Fin cfg0.N, win0_5.index t (0 : Fin 2) = 0 ∧ win0_5.index t (1 : Fin 2) = 0 :=
  (by decide +kernel : ∀ t : Fin grid0.N, _)
theorem i6 : ∀ t : Fin cfg0.N, win0_6.index t (0 : Fin 2) = 0 ∧ win0_6.index t (1 : Fin 2) = 0 :=
  (by decide +kernel : ∀ t : Fin grid0.N, _)
theorem i7 : ∀ t : Fin cfg0.N, win0_7.index t (0 : Fin 2) = 0 ∧ win0_7.index t (1 : Fin 2) = 0 :=
  (by decide +kernel : ∀ t : Fin grid0.N, _)
theorem i8 : ∀ t : Fin cfg0.N, win0_8.index t (0 : Fin 2) = 0 ∧ win0_8.index t (1 : Fin 2) = 0 :=
  (by decide +kernel : ∀ t : Fin grid0.N, _)
theorem i9 : ∀ t : Fin cfg0.N, win0_9.index t (0 : Fin 2) ≤ 7 ∧ win0_9.index t (1 : Fin 2) = 0 :=
  (by decide +kernel : ∀ t : Fin grid0.N, _)
theorem i10 : ∀ t : Fin cfg0.N, win0_10.index t (0 : Fin 2) = win0_9.index t (0 : Fin 2) ∧ win0_10.index t (1 : Fin 2) = 0 :=
  (by decide +kernel : ∀ t : Fin grid0.N, _)
theorem onto9 : ∀ q0 : Fin 8, ∃ t : Fin cfg0.N, win0_9.index t = ![q0.val, 0] :=
  (by decide +kernel : ∀ q0 : Fin 8, ∃ t : Fin grid0.N, win0_9.index t = ![q0.val, 0])
theorem onto10 : ∀ q0 : Fin 8, ∃ t : Fin cfg0.N, win0_10.index t = ![q0.val, 0] :=
  (by decide +kernel : ∀ q0 : Fin 8, ∃ t : Fin grid0.N, win0_10.index t = ![q0.val, 0])

/-- The batch row under row `p` of point `t`'s blocks. -/
def row (t : Fin cfg0.N) (p : Fin 2048) : Fin 16384 :=
  ⟨win0_9.index t (0 : Fin 2) * 2048 + p.val, by have := (i9 t).1; have := p.isLt; omega⟩

/-! ## The input blocks at a point, read off the arrays -/

section
variable (c : Dev nD) (t : Fin cfg0.N)

theorem blk_cw (p : Fin 2048) (k : Fin 10) (d : Fin 128) :
    (iblk m c 0 t : S2048x1280.Idx → EReal) (ix2 p (col k d)) = cw m c (ix3 (row t p) k d) := by
  obtain ⟨e0, e1⟩ := i0 t
  refine Eq.trans ?_ (cw_apply m c (row t p) k d)
  show (V m c main_v15 : S16384x1280.Idx → EReal) (((cfg0.win 0).blk t).view.emb (ix2 p (col k d)))
    = (V m c main_v15 : S16384x1280.Idx → EReal) (ix2 (row t p) (col k d))
  refine congrArg (V m c main_v15 : S16384x1280.Idx → EReal) (funext fun a => Fin.ext ?_)
  match a with
  | ⟨0, _⟩ => show win0_0.index t (0 : Fin 2) * 2048 + 1 * p.val = win0_9.index t (0 : Fin 2) * 2048 + p.val; omega
  | ⟨1, _⟩ => show win0_0.index t (1 : Fin 2) * 1280 + 1 * (col k d).val = (col k d).val; omega

theorem blk_tw (p : Fin 2048) (d : Fin 128) :
    (iblk m c 1 t : S2048x128.Idx → EReal) (ix2 p d) = tw m c (ix2 (row t p) d) := by
  obtain ⟨e0, e1⟩ := i1 t
  refine Eq.trans ?_ (congrFun (V_tw m c) (ix2 (row t p) d))
  show (V m c main_v7 : S16384x128.Idx → EReal) (((cfg0.win 1).blk t).view.emb (ix2 p d))
    = (V m c main_v7 : S16384x128.Idx → EReal) (ix2 (row t p) d)
  refine congrArg (V m c main_v7 : S16384x128.Idx → EReal) (funext fun a => Fin.ext ?_)
  match a with
  | ⟨0, _⟩ => show win0_1.index t (0 : Fin 2) * 2048 + 1 * p.val = win0_9.index t (0 : Fin 2) * 2048 + p.val; omega
  | ⟨1, _⟩ => show win0_1.index t (1 : Fin 2) * 128 + 1 * d.val = d.val; omega

theorem blk_wc (d : Fin 128) (e : Fin 256) :
    (iblk m c 2 t : S128x256.Idx → EReal) (ix2 d e) = A3 m c (ix2 e (lo d)) := by
  obtain ⟨e0, e1⟩ := i2 t
  refine Eq.trans ?_ (wc_apply m c d e)
  show (V m c main_v18 : S128x256.Idx → EReal) (((cfg0.win 2).blk t).view.emb (ix2 d e))
    = (V m c main_v18 : S128x256.Idx → EReal) (ix2 d e)
  refine congrArg (V m c main_v18 : S128x256.Idx → EReal) (funext fun a => Fin.ext ?_)
  match a with
  | ⟨0, _⟩ => show win0_2.index t (0 : Fin 2) * 128 + 1 * d.val = d.val; omega
  | ⟨1, _⟩ => show win0_2.index t (1 : Fin 2) * 256 + 1 * e.val = e.val; omega

theorem blk_wt (d : Fin 128) (e : Fin 256) :
    (iblk m c 3 t : S128x256.Idx → EReal) (ix2 d e) = A3 m c (ix2 e (hi d)) := by
  obtain ⟨e0, e1⟩ := i3 t
  refine Eq.trans ?_ (wt_apply m c d e)
  show (V m c main_v21 : S128x256.Idx → EReal) (((cfg0.win 3).blk t).view.emb (ix2 d e))
    = (V m c main_v21 : S128x256.Idx → EReal) (ix2 d e)
  refine congrArg (V m c main_v21 : S128x256.Idx → EReal) (funext fun a => Fin.ext ?_)
  match a with
  | ⟨0, _⟩ => show win0_3.index t (0 : Fin 2) * 128 + 1 * d.val = d.val; omega
  | ⟨1, _⟩ => show win0_3.index t (1 : Fin 2) * 256 + 1 * e.val = e.val; omega

theorem blk_mb (e : Fin 256) :
    (iblk m c 4 t : S1x256.Idx → EReal) (ix2 (0 : Fin 1) e) = A4 m c (ix1 e) := by
  obtain ⟨e0, e1⟩ := i4 t
  refine Eq.trans ?_ (mb_apply m c e)
  show (V m c main_v26 : S1x256.Idx → EReal) (((cfg0.win 4).blk t).view.emb (ix2 (0 : Fin 1) e))
    = (V m c main_v26 : S1x256.Idx → EReal) (ix2 (0 : Fin 1) e)
  refine congrArg (V m c main_v26 : S1x256.Idx → EReal) (funext fun a => Fin.ext ?_)
  match a with
  | ⟨0, _⟩ => show win0_4.index t (0 : Fin 2) * 1 + 1 * 0 = 0; omega
  | ⟨1, _⟩ => show win0_4.index t (1 : Fin 2) * 256 + 1 * e.val = e.val; omega

theorem blk_uw (e : Fin 256) (q : Fin 128) :
    (iblk m c 5 t : S256x128.Idx → EReal) (ix2 e q) = A5 m c (ix2 q e) := by
  obtain ⟨e0, e1⟩ := i5 t
  refine Eq.trans ?_ (uw_apply m c e q)
  show (V m c main_v23 : S256x128.Idx → EReal) (((cfg0.win 5).blk t).view.emb (ix2 e q))
    = (V m c main_v23 : S256x128.Idx → EReal) (ix2 e q)
  refine congrArg (V m c main_v23 : S256x128.Idx → EReal) (funext fun a => Fin.ext ?_)
  match a with
  | ⟨0, _⟩ => show win0_5.index t (0 : Fin 2) * 256 + 1 * e.val = e.val; omega
  | ⟨1, _⟩ => show win0_5.index t (1 : Fin 2) * 128 + 1 * q.val = q.val; omega

theorem blk_ub (q : Fin 128) :
    (iblk m c 6 t : S1x128.Idx → EReal) (ix2 (0 : Fin 1) q) = A6 m c (ix1 q) := by
  obtain ⟨e0, e1⟩ := i6 t
  refine Eq.trans ?_ (ub_apply m c q)
  show (V m c main_v27 : S1x128.Idx → EReal) (((cfg0.win 6).blk t).view.emb (ix2 (0 : Fin 1) q))
    = (V m c main_v27 : S1x128.Idx → EReal) (ix2 (0 : Fin 1) q)
  refine congrArg (V m c main_v27 : S1x128.Idx → EReal) (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

theorem blk_ww (e : Fin 256) (q : Fin 128) :
    (iblk m c 7 t : S256x128.Idx → EReal) (ix2 e q) = A7 m c (ix2 q e) := by
  obtain ⟨e0, e1⟩ := i7 t
  refine Eq.trans ?_ (ww_apply m c e q)
  show (V m c main_v25 : S256x128.Idx → EReal) (((cfg0.win 7).blk t).view.emb (ix2 e q))
    = (V m c main_v25 : S256x128.Idx → EReal) (ix2 e q)
  refine congrArg (V m c main_v25 : S256x128.Idx → EReal) (funext fun a => Fin.ext ?_)
  match a with
  | ⟨0, _⟩ => show win0_7.index t (0 : Fin 2) * 256 + 1 * e.val = e.val; omega
  | ⟨1, _⟩ => show win0_7.index t (1 : Fin 2) * 128 + 1 * q.val = q.val; omega

theorem blk_wb (q : Fin 128) :
    (iblk m c 8 t : S1x128.Idx → EReal) (ix2 (0 : Fin 1) q) = A8 m c (ix1 q) := by
  obtain ⟨e0, e1⟩ := i8 t
  refine Eq.trans ?_ (wb_apply m c q)
  show (V m c main_v28 : S1x128.Idx → EReal) (((cfg0.win 8).blk t).view.emb (ix2 (0 : Fin 1) q))
    = (V m c main_v28 : S1x128.Idx → EReal) (ix2 (0 : Fin 1) q)
  refine congrArg (V m c main_v28 : S1x128.Idx → EReal) (funext fun a => Fin.ext ?_)
  match a with
  | ⟨0, _⟩ => show win0_8.index t (0 : Fin 2) * 1 + 1 * 0 = 0; omega
  | ⟨1, _⟩ => show win0_8.index t (1 : Fin 2) * 128 + 1 * q.val = q.val; omega

/-- The hidden row `p` of point `t`'s blocks is the hidden row of the batch row under it. -/
theorem hid_point (p : Fin 2048) :
    hidB (iblk m c 0 t) (iblk m c 1 t) (iblk m c 2 t) (iblk m c 3 t) (iblk m c 4 t) p = hidA m c (row t p) := by
  unfold hidB
  simp only [blk_cw, blk_tw, blk_wc, blk_wt, blk_mb]
  rfl

/-- Where entry `(p, q)` of point `t`'s first result block lies in the array. -/
theorem emb9 (p : Fin 2048) (q : Fin 128) :
    ((cfg0.win 9).blk t).view.emb (ix2 p q) = (ix2 (row t p) q : S16384x128.Idx) := by
  obtain ⟨e0, e1⟩ := i9 t
  funext a; apply Fin.ext
  match a with
  | ⟨0, _⟩ => show win0_9.index t (0 : Fin 2) * 2048 + 1 * p.val = win0_9.index t (0 : Fin 2) * 2048 + p.val; omega
  | ⟨1, _⟩ => show win0_9.index t (1 : Fin 2) * 128 + 1 * q.val = q.val; omega

/-- Where entry `(p, q)` of point `t`'s second result block lies in the array. -/
theorem emb10 (p : Fin 2048) (q : Fin 128) :
    ((cfg0.win 10).blk t).view.emb (ix2 p q) = (ix2 (row t p) q : S16384x128.Idx) := by
  obtain ⟨e0, e1⟩ := i10 t
  funext a; apply Fin.ext
  match a with
  | ⟨0, _⟩ => show win0_10.index t (0 : Fin 2) * 2048 + 1 * p.val = win0_9.index t (0 : Fin 2) * 2048 + p.val; omega
  | ⟨1, _⟩ => show win0_10.index t (1 : Fin 2) * 128 + 1 * q.val = q.val; omega

/-- WHAT POINT `t` WRITES BACK to the first result is block `t` of `Gmu`. -/
theorem flushed9_eq : (dats m 0 c).flushed 9 t = ((cfg0.win 9).blk t).view.read (Elt Ideal) (Gmu m c) := by
  rw [Cert.KernelIdeal.Value.flushed9]
  funext j
  obtain ⟨p, q, rfl⟩ : ∃ (p : Fin 2048) (q : Fin 128), j = ix2 p q := ⟨j 0, j 1, eq_ix2 j⟩
  show out0_9 (iblk m c 0 t) (iblk m c 1 t) (iblk m c 2 t) (iblk m c 3 t) (iblk m c 4 t) (iblk m c 5 t)
      (iblk m c 6 t) (iblk m c 7 t) (iblk m c 8 t) (ix2 p q) = Gmu m c (((cfg0.win 9).blk t).view.emb (ix2 p q))
  rw [emb9]
  refine (out9_row (iblk m c 0 t) (iblk m c 1 t) (iblk m c 2 t) (iblk m c 3 t) (iblk m c 4 t) (iblk m c 5 t)
    (iblk m c 6 t) (iblk m c 7 t) (iblk m c 8 t) p q).trans ?_
  rw [hid_point]
  simp only [blk_uw, blk_ub]
  rfl

/-- WHAT POINT `t` WRITES BACK to the second result is block `t` of `Gsigma`. -/
theorem flushed10_eq : (dats m 0 c).flushed 10 t = ((cfg0.win 10).blk t).view.read (Elt Ideal) (Gsigma m c) := by
  rw [Cert.KernelIdeal.Value.flushed10]
  funext j
  obtain ⟨p, q, rfl⟩ : ∃ (p : Fin 2048) (q : Fin 128), j = ix2 p q := ⟨j 0, j 1, eq_ix2 j⟩
  show out0_10 (iblk m c 0 t) (iblk m c 1 t) (iblk m c 2 t) (iblk m c 3 t) (iblk m c 4 t) (iblk m c 5 t)
      (iblk m c 6 t) (iblk m c 7 t) (iblk m c 8 t) (ix2 p q) = Gsigma m c (((cfg0.win 10).blk t).view.emb (ix2 p q))
  rw [emb10]
  refine (out10_row (iblk m c 0 t) (iblk m c 1 t) (iblk m c 2 t) (iblk m c 3 t) (iblk m c 4 t) (iblk m c 5 t)
    (iblk m c 6 t) (iblk m c 7 t) (iblk m c 8 t) p q).trans ?_
  rw [hid_point]
  simp only [blk_ww, blk_wb]
  rfl

end

/-! ## The eight blocks cover the arrays -/

theorem mem_blk9 (t : Fin cfg0.N) (i : S16384x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v29_0).slice (win0_9.rect t)).set ↔ _
  rw [View.set_slice_whole, Rect.mem_set_unit]
  exact Iff.rfl

theorem mem_blk10 (t : Fin cfg0.N) (i : S16384x128.Idx) :
    i ∈ ((cfg0.win 10).blk t).view.set ↔ ∀ a : Fin 2, win0_10.index t a * S2048x128.size a ≤ (i a).val
      ∧ (i a).val < win0_10.index t a * S2048x128.size a + S2048x128.size a := by
  show i ∈ ((View.whole main_v29_1).slice (win0_10.rect t)).set ↔ _
  rw [View.set_slice_whole, Rect.mem_set_unit]
  exact Iff.rfl

/-- Batch row `r` lies in the block of point `r / 2048`. -/
theorem cover9 (i : S16384x128.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  obtain ⟨t, ht⟩ := onto9 ⟨(i 0).val / 2048, by omega⟩
  have q0 : win0_9.index t (0 : Fin 2) = (i 0).val / 2048 := congrFun ht 0
  have q1 : win0_9.index t (1 : Fin 2) = 0 := congrFun ht 1
  refine ⟨t, flush0_9 t, ?_⟩
  rw [mem_blk9]
  intro a
  match a with
  | ⟨0, _⟩ =>
    show win0_9.index t (0 : Fin 2) * 2048 ≤ (i 0).val ∧ (i 0).val < win0_9.index t (0 : Fin 2) * 2048 + 2048
    omega
  | ⟨1, _⟩ =>
    show win0_9.index t (1 : Fin 2) * 128 ≤ (i 1).val ∧ (i 1).val < win0_9.index t (1 : Fin 2) * 128 + 128
    omega

theorem cover10 (i : S16384x128.Idx) :
    ∃ t : Fin cfg0.N, (cfg0.win 10).flush t = true ∧ i ∈ ((cfg0.win 10).blk t).view.set := by
  have hi0 : (i 0).val < 16384 := (i 0).isLt
  have hi1 : (i 1).val < 128 := (i 1).isLt
  obtain ⟨t, ht⟩ := onto10 ⟨(i 0).val / 2048, by omega⟩
  have q0 : win0_10.index t (0 : Fin 2) = (i 0).val / 2048 := congrFun ht 0
  have q1 : win0_10.index t (1 : Fin 2) = 0 := congrFun ht 1
  refine ⟨t, flush0_10 t, ?_⟩
  rw [mem_blk10]
  intro a
  match a with
  | ⟨0, _⟩ =>
    show win0_10.index t (0 : Fin 2) * 2048 ≤ (i 0).val ∧ (i 0).val < win0_10.index t (0 : Fin 2) * 2048 + 2048
    omega
  | ⟨1, _⟩ =>
    show win0_10.index t (1 : Fin 2) * 128 ≤ (i 1).val ∧ (i 1).val < win0_10.index t (1 : Fin 2) * 128 + 128
    omega

/-! ## The arrays after the run -/

theorem final9 (c : Dev nD) : (dats m 0 c).arrAt 9 cfg0.N = Gmu m c :=
  (dats m 0 c).arrAt_eq_of_cover 9 (Gmu m c) (fun t _ => flushed9_eq m c t) cover9

theorem final10 (c : Dev nD) : (dats m 0 c).arrAt 10 cfg0.N = Gsigma m c :=
  (dats m 0 c).arrAt_eq_of_cover 10 (Gsigma m c) (fun t _ => flushed10_eq m c t) cover10

/-- THE KERNEL'S RUN: both results at their functions of the arguments, the arguments unchanged. -/
theorem run : θ_run defs (onTc (τ := τ) (main (F := Ideal))) ⟨m, fun _ => 0, ρ⟩ fun r => ∀ c : Dev nD,
      r.2.mem ((c : Thread nD τ).loc main_v29_0) = Gmu m c
      ∧ r.2.mem ((c : Thread nD τ).loc main_v29_1) = Gsigma m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Cert.KernelIdeal.Value.run_blocks m ρ)

end Cert.KernelIdeal.Final

end
-- ==== Proof.lean ====
/-
  The certificate's five claims for the encoder kernel against its reference.

  Both programs gather one target embedding and ten context embeddings per batch row from the same table, with the
  same index normalisation. The kernel then works on blocks of 2048 rows: it projects the target once and adds the
  bias, adds each context's projection to that base, clips at zero and accumulates over the ten contexts, and
  applies two linear layers to the hidden block, the second followed by softplus. The reference joins each context
  with the target, takes one 256-long product with the first weights, adds the bias, clips, sums over the contexts
  and applies the same two layers. On the extended reals a change of float format is the identity, the matrix unit
  and the host's dot product are the same finite sums, and the two associations of those sums agree because
  addition is associative and commutative and a sum over 256 indices splits into its two halves; nothing needs
  the inputs to be finite.

  The three frames are the generated ones (the reference's is its generated run with the results dropped); the
  ideal pass rewrote nothing, so the sanctioned-idealization claim is trivial; the value claim sets the kernel's
  run, with each result array at one function of the arguments (`Final.lean`), beside the reference's generated run,
  whose results are that same function (`Ref.lean`).
-/
import proofs.«126646_j84894323573021_2_alg».proof.Defs
import proofs.«126646_j84894323573021_2_alg».proof.Proof.Gen.Kernel
import proofs.«126646_j84894323573021_2_alg».proof.Proof.Gen.Kernel.Skeleton
import proofs.«126646_j84894323573021_2_alg».proof.Proof.Gen.Kernel.Launch
import proofs.«126646_j84894323573021_2_alg».proof.Proof.Gen.Kernel.Points
import proofs.«126646_j84894323573021_2_alg».proof.Proof.Gen.Kernel.Frame
import proofs.«126646_j84894323573021_2_alg».proof.Proof.Gen.KernelIdeal
import proofs.«126646_j84894323573021_2_alg».proof.Proof.Gen.KernelIdeal.Skeleton
import proofs.«126646_j84894323573021_2_alg».proof.Proof.Gen.KernelIdeal.Launch
import proofs.«126646_j84894323573021_2_alg».proof.Proof.Gen.KernelIdeal.Points
import proofs.«126646_j84894323573021_2_alg».proof.Proof.Gen.KernelIdeal.Frame
import proofs.«126646_j84894323573021_2_alg».proof.Proof.Gen.ReferenceIdeal
import proofs.«126646_j84894323573021_2_alg».proof.Proof.Gen.Pre_finite_inputs
import proofs.«126646_j84894323573021_2_alg».proof.Proof.Gen.KernelIdeal.Value
import proofs.«126646_j84894323573021_2_alg».proof.Proof.Gen.ReferenceIdeal.Run
import proofs.«126646_j84894323573021_2_alg».proof.Proof.Gen.ReferenceIdeal.Read
import proofs.«126646_j84894323573021_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Both programs end with each result at one function of the arguments (`Final.Gmu`, `Final.Gsigma`): the kernel
    by its blocks, the reference by its stages read at an index, from memories that agree on the arguments. -/
theorem algebraic : Cert.algebraic_KernelIdeal_ReferenceIdeal := by
  intro m ρ m' ρ' _ hagree
  refine ⟨fun c => Cert.KernelIdeal.Final.Gmu m c, fun c => Cert.KernelIdeal.Final.Gsigma m c,
    Cert.KernelIdeal.Final.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [a0, a1, a2, a3, a4, a5, a6]
    exact Cert.KernelIdeal.Final.ref_mu_eq m c
  · obtain ⟨a0, a1, a2, a3, a4, a5, a6, a7, a8⟩ := hagree c
    rw [Cert.ReferenceIdeal.Read.val_main_v33_eq, a0, a1, a2, a3, a4, a7, a8]
    exact Cert.KernelIdeal.Final.ref_sigma_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
